-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2 : Shape := ⟨2, ![1024, 2]⟩
abbrev S100000x2 : Shape := ⟨2, ![100000, 2]⟩
abbrev S50000x256 : Shape := ⟨2, ![50000, 256]⟩
abbrev S500x256 : Shape := ⟨2, ![500, 256]⟩
abbrev S100000x768 : Shape := ⟨2, ![100000, 768]⟩
abbrev S100000 : Shape := ⟨1, ![100000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500x256 : S_.BroadcastsInDim S500x256 (![] : Fin 0 → Fin S500x256.rank)
  reducesTo_S500x256_S_d0_1 : S500x256.ReducesTo [0, 1] S_
  bcast_S_S100000x768 : S_.BroadcastsInDim S100000x768 (![] : Fin 0 → Fin S100000x768.rank)
  reducesTo_S100000x768_S_d0_1 : S100000x768.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : IVec S1024x2 32) (main_arg1 : IVec S100000x2 32) (main_arg2 : FVec F S50000x256 .f32) (main_arg3 : FVec F S500x256 .f32) (main_arg4 : FVec F S100000x768 .f32) (main_arg5 : FVec F S100000 .f32) : IVec S_ 1 :=
  let main_v0 : FVec F S50000x256 .f32 := Host.absf main_arg2
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S500x256 .f32 := Host.absf main_arg3
  let main_cst_0 : FVec F S_ .f32 := constant S_ .f32 0x7F800000#32
  let main_v5 : FVec F S500x256 .f32 := broadcastInDim S500x256 ![] bcast_S_S500x256 main_cst_0
  let main_v6 : IVec S500x256 1 := cmpf .olt main_v4 main_v5
  let main_c_1 : IVec S_ 1 := constantI S_ 1 1#1
  let main_v7 : IVec S_ 1 := (fun x v => Host.reduce IntOp.andi x v reducesTo_S500x256_S_d0_1 h_S_) main_v6 main_c_1
  let main_v8 : IVec S_ 1 := andi main_v3 main_v7
  let main_v9 : FVec F S100000x768 .f32 := Host.absf main_arg4
  let main_cst_2 : FVec F S_ .f32 := constant S_ .f32 0x7F800000#32
  let main_v10 : FVec F S100000x768 .f32 := broadcastInDim S100000x768 ![] bcast_S_S100000x768 main_cst_2
  let main_v11 : IVec S100000x768 1 := cmpf .olt main_v9 main_v10
  let main_c_3 : IVec S_ 1 := constantI S_ 1 1#1
  let main_v12 : IVec S_ 1 := (fun x v => Host.reduce IntOp.andi x v reducesTo_S100000x768_S_d0_1 h_S_) main_v11 main_c_3
  let main_v13 : IVec S_ 1 := andi main_v8 main_v12
  let main_v14 : FVec F S100000 .f32 := Host.absf main_arg5
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S1024x2 : Shape := ⟨2, ![1024, 2]⟩
abbrev S100000x2 : Shape := ⟨2, ![100000, 2]⟩
abbrev S50000x256 : Shape := ⟨2, ![50000, 256]⟩
abbrev S500x256 : Shape := ⟨2, ![500, 256]⟩
abbrev S100000x768 : Shape := ⟨2, ![100000, 768]⟩
abbrev S100000 : Shape := ⟨1, ![100000]⟩
abbrev S1024x1 : Shape := ⟨2, ![1024, 1]⟩
abbrev S1024 : Shape := ⟨1, ![1024]⟩
abbrev S_ : Shape := ⟨0, ![]⟩
abbrev S1024x256 : Shape := ⟨2, ![1024, 256]⟩
abbrev S1024x768 : Shape := ⟨2, ![1024, 768]⟩
abbrev S1x100000 : Shape := ⟨2, ![1, 100000]⟩
abbrev S1024x100000 : Shape := ⟨2, ![1024, 100000]⟩
abbrev S1792x768 : Shape := ⟨2, ![1792, 768]⟩
abbrev S1x1792 : Shape := ⟨2, ![1, 1792]⟩
abbrev S1024x1792 : Shape := ⟨2, ![1024, 1792]⟩

abbrev nBuf : Space → Nat
  | .hbm => 54
  | .vmem => 7
  | .smem => 0
  | _ => 0

abbrev bufTy : (tb : Table) → Fin (tcTables nBuf tb) → BufTy
  | .hbm, ⟨0, _⟩ => ⟨S1024x2, .i32⟩
  | .hbm, ⟨1, _⟩ => ⟨S100000x2, .i32⟩
  | .hbm, ⟨2, _⟩ => ⟨S50000x256, .f32⟩
  | .hbm, ⟨3, _⟩ => ⟨S500x256, .f32⟩
  | .hbm, ⟨4, _⟩ => ⟨S100000x768, .f32⟩
  | .hbm, ⟨5, _⟩ => ⟨S100000, .f32⟩
  | .hbm, ⟨6, _⟩ => ⟨S1024x1, .i32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x2, .i32⟩
  | .hbm, ⟨19, _⟩ => ⟨S1024x1, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x256, .f32⟩
  | .hbm, ⟨30, _⟩ => ⟨S1024x1, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x256, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x256, .f32⟩
  | .hbm, ⟨50, _⟩ => ⟨S1024x768, .f32⟩
  | .hbm, ⟨51, _⟩ => ⟨S1024x768, .bf16⟩
  | .hbm, ⟨52, _⟩ => ⟨S1x100000, .f32⟩
  | .hbm, ⟨53, _⟩ => ⟨S1024x100000, .f32⟩
  | .local _ .vmem, ⟨0, _⟩ => ⟨S1024x768, .bf16⟩
  | .local _ .vmem, ⟨1, _⟩ => ⟨S1792x768, .f32⟩
  | .local _ .vmem, ⟨2, _⟩ => ⟨S1792x768, .f32⟩
  | .local _ .vmem, ⟨3, _⟩ => ⟨S1x1792, .f32⟩
  | .local _ .vmem, ⟨4, _⟩ => ⟨S1x1792, .f32⟩
  | .local _ .vmem, ⟨5, _⟩ => ⟨S1024x1792, .f32⟩
  | .local _ .vmem, ⟨6, _⟩ => ⟨S1024x1792, .f32⟩
  | _, _ => ⟨S1024x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S_S1024 : S_.BroadcastsInDim S1024 (![] : Fin 0 → Fin S1024.rank)
  bcast_S1024_S1024x1_0 : S1024.BroadcastsInDim S1024x1 (![0] : Fin 1 → Fin S1024x1.rank)
  concatenates_S1024x256_S1024x256_S1024x256_S1024x768_d1 : Shape.Concatenates [S1024x256, S1024x256, S1024x256] S1024x768 1
  bitsLt_bf16_f32 : FTy.bits .bf16 < FTy.bits .f32
  shapeCasts_S100000_S1x100000 : S100000.ShapeCasts S1x100000
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1792x768_S1792x768_0_0 : ∀ a, (![0, 0] : Fin 2 → Nat) a + S1792x768.size a ≤ S1792x768.size a
  h_S1792x768 : 0 < S1792x768.numel
  inb_S1x1792_S1x1792_0_0 : ∀ a, (![0, 0] : Fin 2 → Nat) a + S1x1792.size a ≤ S1x1792.size a
  h_S1x1792 : 0 < S1x1792.numel
  shapeCasts_S1x1792_S1x1792 : S1x1792.ShapeCasts S1x1792
  broadcasts_S1x1792_S1024x1792 : S1x1792.Broadcasts S1024x1792
  inb_S1024x1792_S1024x1792_0_0 : ∀ a, (![0, 0] : Fin 2 → Nat) a + S1024x1792.size a ≤ S1024x1792.size a
  h_S1024x1792 : 0 < S1024x1792.numel
  gather_S100000x2_S1024x1_S1024x2_1_0_n_n_0_1_12_wf : GatherDims.WF S100000x2 S1024x1 S1024x2 [1] [0] [] [0] [] 1 ![1, 2]
  gather_S50000x256_S1024x1_S1024x256_1_0_n_n_0_1_1256_wf : GatherDims.WF S50000x256 S1024x1 S1024x256 [1] [0] [] [0] [] 1 ![1, 256]
  gather_S500x256_S1024x1_S1024x256_1_0_n_n_0_1_1256_wf : GatherDims.WF S500x256 S1024x1 S1024x256 [1] [0] [] [0] [] 1 ![1, 256]
  dot_S1024x768_S1792x768_S1024x1792_1_1_0_0_n_n_wf : DotDims.WF S1024x768 S1792x768 S1024x1792 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S1024x768.size a
  hwx0_0 : ∀ i : grid0.Coords, EltTy.bits .bf16 = 32 ∨ (Rect.block (s := S1024x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1792x768.size a < S100000x768.size a
  hwx0_1 : ∀ i : grid0.Coords, EltTy.bits .f32 = 32 ∨ (Rect.unit (s := S100000x768) (fun a => cc0_transform_1 i a * S1792x768.size a) (fun a => (Pipeline.Clip.of (cc0_transform_1 i a) (S1792x768.size a) (S100000x768.size a)).extent (S1792x768.size a)) fun a => Pipeline.Clip.inb (Pipeline.Clip.ok_of (hstart0_1 i a))).WholeWords (EltTy.packing .f32)
  hwxs0_1 : ∀ i : grid0.Coords, EltTy.bits .f32 = 32 ∨ (Rect.unit (s := S1792x768) (fun _ => 0) (fun a => (Pipeline.Clip.of (cc0_transform_1 i a) (S1792x768.size a) (S100000x768.size a)).extent (S1792x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1792.size a < S1x100000.size a
  hwx0_2 : ∀ i : grid0.Coords, EltTy.bits .f32 = 32 ∨ (Rect.unit (s := S1x100000) (fun a => cc0_transform_2 i a * S1x1792.size a) (fun a => (Pipeline.Clip.of (cc0_transform_2 i a) (S1x1792.size a) (S1x100000.size a)).extent (S1x1792.size a)) fun a => Pipeline.Clip.inb (Pipeline.Clip.ok_of (hstart0_2 i a))).WholeWords (EltTy.packing .f32)
  hwxs0_2 : ∀ i : grid0.Coords, EltTy.bits .f32 = 32 ∨ (Rect.unit (s := S1x1792) (fun _ => 0) (fun a => (Pipeline.Clip.of (cc0_transform_2 i a) (S1x1792.size a) (S1x100000.size a)).extent (S1x1792.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1792.size a < S1024x100000.size a
  hwx0_3 : ∀ i : grid0.Coords, EltTy.bits .f32 = 32 ∨ (Rect.unit (s := S1024x100000) (fun a => cc0_transform_3 i a * S1024x1792.size a) (fun a => (Pipeline.Clip.of (cc0_transform_3 i a) (S1024x1792.size a) (S1024x100000.size a)).extent (S1024x1792.size a)) fun a => Pipeline.Clip.inb (Pipeline.Clip.ok_of (hstart0_3 i a))).WholeWords (EltTy.packing .f32)
  hwxs0_3 : ∀ i : grid0.Coords, EltTy.bits .f32 = 32 ∨ (Rect.unit (s := S1024x1792) (fun _ => 0) (fun a => (Pipeline.Clip.of (cc0_transform_3 i a) (S1024x1792.size a) (S1024x100000.size a)).extent (S1024x1792.size a)) fun a => (Nat.zero_add _).trans_le (Pipeline.Clip.extent_le (Pipeline.Clip.ok_of (hstart0_3 i a)))).WholeWords (EltTy.packing .f32)

variable [Facts₀]

def gather_S100000x2_S1024x1_S1024x2_1_0_n_n_0_1_12 : GatherDims S100000x2 S1024x1 S1024x2 where
  offsetDims := [1]
  collapsedSliceDims := [0]
  operandBatchingDims := []
  startIndicesBatchingDims := []
  startIndexMap := [0]
  indexVectorDim := 1
  sliceSizes := ![1, 2]
  wf := gather_S100000x2_S1024x1_S1024x2_1_0_n_n_0_1_12_wf
def gather_S50000x256_S1024x1_S1024x256_1_0_n_n_0_1_1256 : GatherDims S50000x256 S1024x1 S1024x256 where
  offsetDims := [1]
  collapsedSliceDims := [0]
  operandBatchingDims := []
  startIndicesBatchingDims := []
  startIndexMap := [0]
  indexVectorDim := 1
  sliceSizes := ![1, 256]
  wf := gather_S50000x256_S1024x1_S1024x256_1_0_n_n_0_1_1256_wf
def gather_S500x256_S1024x1_S1024x256_1_0_n_n_0_1_1256 : GatherDims S500x256 S1024x1 S1024x256 where
  offsetDims := [1]
  collapsedSliceDims := [0]
  operandBatchingDims := []
  startIndicesBatchingDims := []
  startIndexMap := [0]
  indexVectorDim := 1
  sliceSizes := ![1, 256]
  wf := gather_S500x256_S1024x1_S1024x256_1_0_n_n_0_1_1256_wf
def dot_S1024x768_S1792x768_S1024x1792_1_1_0_0_n_n : DotDims S1024x768 S1792x768 S1024x1792 where
  lhsContracting := [1]
  rhsContracting := [1]
  lhsNonContracting := [0]
  rhsNonContracting := [0]
  lhsBatch := []
  rhsBatch := []
  wf := dot_S1024x768_S1792x768_S1024x1792_1_1_0_0_n_n_wf

abbrev win0_0 : Pipeline.Window sig grid0 :=
  Pipeline.Window.ofSpec (Memref.whole main_v37) S1024x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg4) S1792x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v38) S1x1792.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v39) S1024x1792.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x2 : Shape := ⟨2, ![1024, 2]⟩
abbrev S100000x2 : Shape := ⟨2, ![100000, 2]⟩
abbrev S50000x256 : Shape := ⟨2, ![50000, 256]⟩
abbrev S500x256 : Shape := ⟨2, ![500, 256]⟩
abbrev S100000x768 : Shape := ⟨2, ![100000, 768]⟩
abbrev S100000 : Shape := ⟨1, ![100000]⟩
abbrev S1024x1 : Shape := ⟨2, ![1024, 1]⟩
abbrev S1024 : Shape := ⟨1, ![1024]⟩
abbrev S_ : Shape := ⟨0, ![]⟩
abbrev S1024x256 : Shape := ⟨2, ![1024, 256]⟩
abbrev S1024x768 : Shape := ⟨2, ![1024, 768]⟩
abbrev S768x100000 : Shape := ⟨2, ![768, 100000]⟩
abbrev S1024x100000 : Shape := ⟨2, ![1024, 100000]⟩
abbrev S1x100000 : Shape := ⟨2, ![1, 100000]⟩

abbrev nBuf : Space → Nat
  | .hbm => 56
  | .vmem => 0
  | .smem => 0
  | _ => 0

abbrev bufTy : (tb : Table) → Fin (tcTables nBuf tb) → BufTy
  | .hbm, ⟨0, _⟩ => ⟨S1024x2, .i32⟩
  | .hbm, ⟨1, _⟩ => ⟨S100000x2, .i32⟩
  | .hbm, ⟨2, _⟩ => ⟨S50000x256, .f32⟩
  | .hbm, ⟨3, _⟩ => ⟨S500x256, .f32⟩
  | .hbm, ⟨4, _⟩ => ⟨S100000x768, .f32⟩
  | .hbm, ⟨5, _⟩ => ⟨S100000, .f32⟩
  | .hbm, ⟨6, _⟩ => ⟨S1024x1, .i32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x2, .i32⟩
  | .hbm, ⟨19, _⟩ => ⟨S1024x1, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x256, .f32⟩
  | .hbm, ⟨30, _⟩ => ⟨S1024x1, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x256, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x256, .f32⟩
  | .hbm, ⟨50, _⟩ => ⟨S1024x768, .f32⟩
  | .hbm, ⟨51, _⟩ => ⟨S768x100000, .f32⟩
  | .hbm, ⟨52, _⟩ => ⟨S1024x100000, .f32⟩
  | .hbm, ⟨53, _⟩ => ⟨S1x100000, .f32⟩
  | .hbm, ⟨54, _⟩ => ⟨S1024x100000, .f32⟩
  | .hbm, ⟨55, _⟩ => ⟨S1024x100000, .f32⟩
  | _, _ => ⟨S1024x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S_S1024 : S_.BroadcastsInDim S1024 (![] : Fin 0 → Fin S1024.rank)
  bcast_S1024_S1024x1_0 : S1024.BroadcastsInDim S1024x1 (![0] : Fin 1 → Fin S1024x1.rank)
  concatenates_S1024x256_S1024x256_S1024x256_S1024x768_d1 : Shape.Concatenates [S1024x256, S1024x256, S1024x256] S1024x768 1
  transposes_S100000x768_S768x100000_1_0 : S100000x768.Transposes [1, 0] S768x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x2_S1024x1_S1024x2_1_0_n_n_0_1_12_wf : GatherDims.WF S100000x2 S1024x1 S1024x2 [1] [0] [] [0] [] 1 ![1, 2]
  gather_S50000x256_S1024x1_S1024x256_1_0_n_n_0_1_1256_wf : GatherDims.WF S50000x256 S1024x1 S1024x256 [1] [0] [] [0] [] 1 ![1, 256]
  gather_S500x256_S1024x1_S1024x256_1_0_n_n_0_1_1256_wf : GatherDims.WF S500x256 S1024x1 S1024x256 [1] [0] [] [0] [] 1 ![1, 256]
  dot_S1024x768_S768x100000_S1024x100000_1_0_0_1_n_n_wf : DotDims.WF S1024x768 S768x100000 S1024x100000 [1] [0] [0] [1] [] []

variable [Facts₀]

def gather_S100000x2_S1024x1_S1024x2_1_0_n_n_0_1_12 : GatherDims S100000x2 S1024x1 S1024x2 where
  offsetDims := [1]
  collapsedSliceDims := [0]
  operandBatchingDims := []
  startIndicesBatchingDims := []
  startIndexMap := [0]
  indexVectorDim := 1
  sliceSizes := ![1, 2]
  wf := gather_S100000x2_S1024x1_S1024x2_1_0_n_n_0_1_12_wf
def gather_S50000x256_S1024x1_S1024x256_1_0_n_n_0_1_1256 : GatherDims S50000x256 S1024x1 S1024x256 where
  offsetDims := [1]
  collapsedSliceDims := [0]
  operandBatchingDims := []
  startIndicesBatchingDims := []
  startIndexMap := [0]
  indexVectorDim := 1
  sliceSizes := ![1, 256]
  wf := gather_S50000x256_S1024x1_S1024x256_1_0_n_n_0_1_1256_wf
def gather_S500x256_S1024x1_S1024x256_1_0_n_n_0_1_1256 : GatherDims S500x256 S1024x1 S1024x256 where
  offsetDims := [1]
  collapsedSliceDims := [0]
  operandBatchingDims := []
  startIndicesBatchingDims := []
  startIndexMap := [0]
  indexVectorDim := 1
  sliceSizes := ![1, 256]
  wf := gather_S500x256_S1024x1_S1024x256_1_0_n_n_0_1_1256_wf
def dot_S1024x768_S768x100000_S1024x100000_1_0_0_1_n_n : DotDims S1024x768 S768x100000 S1024x100000 where
  lhsContracting := [1]
  rhsContracting := [0]
  lhsNonContracting := [0]
  rhsNonContracting := [1]
  lhsBatch := []
  rhsBatch := []
  wf := dot_S1024x768_S768x100000_S1024x100000_1_0_0_1_n_n_wf

class Facts : Prop extends Facts₀ where

variable [Facts]
-- ==== Proof.EntryBits.lean ====
/-
  What the kernel's region finds in memory.

  Before the call, forty-seven host operations build the call's operands from the argument arrays: they pick a
  row of the entity table and three embedding rows for each of the 1024 items, lay the three rows side by side
  into one 1024 x 768 matrix, and view the bias vector as a single row. None of them writes an argument array.
  This module names the memory after those operations, shows that the program is those operations followed by
  the call, and that every argument array is still what it was at launch.
-/
import proofs.«165624_j5403068859161_2_alg».proof.Proof.Gen.Kernel.Launch
import Idealize.ShloMosaic.Lib.Pipeline.Frame
import Idealize.ShloMosaic.Lib.StableHlo.Run

set_option maxRecDepth 16384

noncomputable section

namespace Cert.Kernel.Entry

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- The buffers of device `c` when the call is reached: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is the host operations, then the call: the call is reached with the buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.Kernel.Entry

end
-- ==== Proof.BodyBits.lean ====
/-
  One run of the kernel's body.

  At a grid point the body reads the whole 1024 x 768 block of item rows, the whole 1792 x 768 block of weight rows
  and the 1 x 1792 block of biases out of their staging buffers, multiplies the item rows by the weight rows, adds
  the biases along every row, and stores the 1024 x 1792 result over the whole output staging buffer. Every access
  is a whole staging buffer, so nothing can fault, and the three input buffers are left as they were.
-/
import proofs.«165624_j5403068859161_2_alg».proof.Proof.Gen.Kernel.Launch
import proofs.«165624_j5403068859161_2_alg».proof.Proof.Gen.Kernel.Skeleton
import proofs.«165624_j5403068859161_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on four whole staging buffers, the three inputs' at contents `x1`, `x2`, `x3` and the output's at
    anything: it runs to its end, leaves the inputs' buffers as they were and the output's at the product plus the
    biases, `k0_pay1 x1 x2 x3`. -/
theorem sound_kernel (c : Dev nD) (E : Set ℕ) (i : grid0.Coords)
    (a1 : Memref sig .tc .vmem S1024x768 .bf16) (h1 : a1.IsWhole) (a2 : Memref sig .tc .vmem S1792x768 .f32) (h2 : a2.IsWhole)
    (a3 : Memref sig .tc .vmem S1x1792 .f32) (h3 : a3.IsWhole) (a4 : Memref sig .tc .vmem S1024x1792 .f32) (h4 : a4.IsWhole)
    (x1 : Vec F S1024x768 .bf16) (x2 : Vec F S1792x768 .f32) (x3 : Vec F S1x1792 .f32) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d)
        ∗ (iprop(owns (c : Thread nD τ) a1 fullShare x1 ∗ owns (c : Thread nD τ) a2 fullShare x2 ∗ owns (c : Thread nD τ) a3 fullShare x3
            ∗ owns (c : Thread nD τ) a4 fullShare (k0_pay1 x1 x2 x3)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  have hz2 : (![0, 0] : Fin 2 → Nat) = fun _ => 0 := funext fun a => by fin_cases a <;> rfl
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (View.cover_of_tiled _ S1024x1792.size (by rfl)), View.canon_unit_zero hz2]
  simp only [View.readAt_eq_ld, View.ld_unit_zero (S := S1024x768) hz2, View.ld_unit_zero (S := S1792x768) hz2,
    View.ld_unit_zero (S := S1x1792) hz2]

end Cert.Kernel.Body

end
-- ==== Proof.FrameBits.lean ====
/-
  The kernel runs and leaves its arguments alone.

  For this statement nothing has to be said about what the call computes, only that it runs to its end without a
  fault and writes no argument array. So the proof data constrains no staging buffer: whatever a buffer holds when
  the body is handed it, the body (whole-buffer loads and one whole-buffer store, `Body.sound_kernel`) runs and
  hands it back holding something. The launch gives back every array the call does not write as the call found it,
  the weight array among the call's own inputs included, and the host operations before the call write no argument.
-/
import proofs.«165624_j5403068859161_2_alg».proof.Proof.EntryBits
import proofs.«165624_j5403068859161_2_alg».proof.Proof.BodyBits
import Idealize.ShloMosaic.Lib.Pipeline.Frame
import Idealize.ShloMosaic.Lib.Pipeline.Kit

set_option maxRecDepth 16384

noncomputable section

namespace Cert.Kernel.Frame

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the call finds them; of what the body leaves in a staging buffer, nothing. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, whatever the four current staging buffers hold, the body runs and hands them back. -/
theorem body_obligation (c : Dev nD) : (rdats m c).BodyObligation (defs₀ (F := F)) Variants.none () Set.univ := fun t Y _ => by
  rw [bigSep_W0, bigSep_W0]
  rw [show (rdats m c).Φ t.succ = (rdats m c).Φ t.castSucc from rfl,
    show (rdats m c).owesAt () t.succ = (rdats m c).owesAt () t.castSucc from rfl]
  show _ ⊢ wp frame (wpE (defs₀ (F := F)) Variants.none c none) Set.univ (bodyAt0 t) _
  iintro ⟨HΦ, Ho, H0, H1, H2, H3⟩
  iapply (Body.sound_kernel (F := F) c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (k0_pay1 (F := F) (Y 0) (Y 1) (Y 2)); isplitr; · ipureintro; trivial
    iexact H3

set_option backward.isDefEq.respectTransparency.types false in
/-- Every weakly fair execution ends; the call's arrays end at something the write-backs may have left and every other
    buffer as the call found it. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- The frame: the program runs and its six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (by have h4 := (h c).1 (1 : Fin 4)
          rw [(rdats m c).ArrAt_in (1 : Fin 4) rfl] at h4
          exact h4.trans (V_main_arg4 m c)),
      ((h c).2 main_arg5 (Pipeline.mem_restRefs_of main_arg5 (by decide) (by decide))).trans (V_main_arg5 m c)⟩)
    (run_main m ρ)

end Cert.Kernel.Frame

end
-- ==== Proof.EntryIdeal.lean ====
/-
  What the kernel's region finds in memory.

  Before the call, forty-seven host operations build the call's operands from the argument arrays: they pick a
  row of the entity table and three embedding rows for each of the 1024 items, lay the three rows side by side
  into one 1024 x 768 matrix, and view the bias vector as a single row. None of them writes an argument array.
  This module names the memory after those operations, shows that the program is those operations followed by
  the call, and that every argument array is still what it was at launch.
-/
import proofs.«165624_j5403068859161_2_alg».proof.Proof.Gen.KernelIdeal.Launch
import Idealize.ShloMosaic.Lib.Pipeline.Frame
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- The buffers of device `c` when the call is reached: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is the host operations, then the call: the call is reached with the buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.KernelIdeal.Entry

end
-- ==== Proof.BodyIdeal.lean ====
/-
  One run of the kernel's body.

  At a grid point the body reads the whole 1024 x 768 block of item rows, the whole 1792 x 768 block of weight rows
  and the 1 x 1792 block of biases out of their staging buffers, multiplies the item rows by the weight rows, adds
  the biases along every row, and stores the 1024 x 1792 result over the whole output staging buffer. Every access
  is a whole staging buffer, so nothing can fault, and the three input buffers are left as they were.
-/
import proofs.«165624_j5403068859161_2_alg».proof.Proof.Gen.KernelIdeal.Launch
import proofs.«165624_j5403068859161_2_alg».proof.Proof.Gen.KernelIdeal.Skeleton
import proofs.«165624_j5403068859161_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on four whole staging buffers, the three inputs' at contents `x1`, `x2`, `x3` and the output's at
    anything: it runs to its end, leaves the inputs' buffers as they were and the output's at the product plus the
    biases, `k0_pay1 x1 x2 x3`. -/
theorem sound_kernel (c : Dev nD) (E : Set ℕ) (i : grid0.Coords)
    (a1 : Memref sig .tc .vmem S1024x768 .bf16) (h1 : a1.IsWhole) (a2 : Memref sig .tc .vmem S1792x768 .f32) (h2 : a2.IsWhole)
    (a3 : Memref sig .tc .vmem S1x1792 .f32) (h3 : a3.IsWhole) (a4 : Memref sig .tc .vmem S1024x1792 .f32) (h4 : a4.IsWhole)
    (x1 : Vec F S1024x768 .bf16) (x2 : Vec F S1792x768 .f32) (x3 : Vec F S1x1792 .f32) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d)
        ∗ (iprop(owns (c : Thread nD τ) a1 fullShare x1 ∗ owns (c : Thread nD τ) a2 fullShare x2 ∗ owns (c : Thread nD τ) a3 fullShare x3
            ∗ owns (c : Thread nD τ) a4 fullShare (k0_pay1 x1 x2 x3)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  have hz2 : (![0, 0] : Fin 2 → Nat) = fun _ => 0 := funext fun a => by fin_cases a <;> rfl
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (View.cover_of_tiled _ S1024x1792.size (by rfl)), View.canon_unit_zero hz2]
  simp only [View.readAt_eq_ld, View.ld_unit_zero (S := S1024x768) hz2, View.ld_unit_zero (S := S1792x768) hz2,
    View.ld_unit_zero (S := S1x1792) hz2]

end Cert.KernelIdeal.Body

end
-- ==== Proof.LibDenseRows.lean ====
/-
  A layer computed from weight rows, read at an index.

  A kernel may multiply a block of `K` item rows `[K, N]` by `Q` weight rows `[Q, N]` without transposing
  the weights: the matrix unit contracts the second axis of both operands. Into a zero accumulator, over the extended
  reals, entry `(p, q)` of the product is the plain sum `Σ n, X (p, n) * W (q, n)`; with a bias row `[1, Q]`
  laid along every row of the block added, it is that sum plus `bias (0, q)`. In particular column `q` of the
  result depends on row `q` of the weights and entry `q` of the bias only.
-/
import Idealize.ShloMosaic.Lib.ValueIdx
import Idealize.ShloMosaic.Lib.ValueLayout
import Idealize.ShloMosaic.PureOps.Ideal.Laws

noncomputable section

namespace Idealize.ShloMosaic.DenseRows

open Idealize.ShloMosaic Idealize.ShloMosaic.ValueIdx

/-- The dimension numbers of `[K, N] · [Q, N]ᵀ → [K, Q]`. -/
abbrev rowDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (rowDims K N Q wf).contr.Idx) :
    ((rowDims K N Q wf).lhsIdx j c (0 : Fin 2)).val = (j 0).val := by
  unfold DotDims.lhsIdx
  rw [dif_neg (show ¬ (0 : Fin 2) ∈ (rowDims K N Q wf).lhsBatch from List.not_mem_nil),
    dif_pos (show (0 : Fin 2) ∈ (rowDims K N Q wf).lhsNonContracting from List.mem_singleton.mpr rfl)]
  rfl

/-- The left operand's column is the contraction position. -/
theorem lhs_col (j : (⟨2, ![K, Q]⟩ : Shape).Idx) (c : (rowDims K N Q wf).contr.Idx) :
    ((rowDims K N Q wf).lhsIdx j c (1 : Fin 2)).val = (c ⟨0, Nat.one_pos⟩).val :=
  (rowDims K N Q wf).lhsIdx_val_of_single rfl j c

/-- The right operand's row is the result's column. -/
theorem rhs_row (j : (⟨2, ![K, Q]⟩ : Shape).Idx) (c : (rowDims K N Q wf).contr.Idx) :
    ((rowDims K N Q wf).rhsIdx j c (0 : Fin 2)).val = (j 1).val := by
  unfold DotDims.rhsIdx
  rw [dif_neg (show ¬ (0 : Fin 2) ∈ (rowDims K N Q wf).rhsBatch from List.not_mem_nil),
    dif_pos (show (0 : Fin 2) ∈ (rowDims K N Q wf).rhsNonContracting from List.mem_singleton.mpr rfl)]
  rfl

/-- The right operand's column is the contraction position. -/
theorem rhs_col (j : (⟨2, ![K, Q]⟩ : Shape).Idx) (c : (rowDims K N Q wf).contr.Idx) :
    ((rowDims K N Q wf).rhsIdx j c (1 : Fin 2)).val = (c ⟨0, Nat.one_pos⟩).val :=
  (rowDims K N Q wf).rhsIdx_val_of_single rfl j c

/-- Entry `(p, q)` of the product into a zero accumulator is `Σ n, X (p, n) * W (q, n)`. -/
theorem matmul_rows_zero_apply {φ₁ φ₂ : FTy} (X : FVec Ideal ⟨2, ![K, N]⟩ φ₁) (W : FVec Ideal ⟨2, ![Q, N]⟩ φ₂)
    (p : Fin K) (q : Fin Q) :
    FloatOps.matmul (rowDims K N Q wf) none X W (constant ⟨2, ![K, Q]⟩ .f32 0x00000000#32) (ix2 p q)
      = ∑ n : Fin N, X (ix2 p n) * W (ix2 q n) := by
  rw [Ideal.matmul_constant_zero_apply, ← Equiv.sum_comp (contrEquiv1 (rowDims K N Q wf) N rfl rfl).symm]
  refine Finset.sum_congr rfl fun n _ => ?_
  have hn := contrEquiv1_symm_val (rowDims K N Q wf) N rfl rfl n
  have el : (rowDims K N Q wf).lhsIdx (ix2 p q) ((contrEquiv1 (rowDims K N Q wf) N rfl rfl).symm n) = ix2 p n :=
    funext fun a => Fin.ext (by
      match a with
      | ⟨0, _⟩ => exact lhs_row wf _ _
      | ⟨1, _⟩ => exact (lhs_col wf _ _).trans hn)
  have er : (rowDims K N Q wf).rhsIdx (ix2 p q) ((contrEquiv1 (rowDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_rows_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (rowDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (rowDims K N Q wf) none X W (constant ⟨2, ![K, Q]⟩ .f32 0x00000000#32) (ix2 p q)
      + broadcastTo ⟨2, ![K, Q]⟩ bias hb (ix2 p q) = _
  rw [matmul_rows_zero_apply wf X W p q, broadcastTo_1b_ab_apply bias hb p q]

end

end Idealize.ShloMosaic.DenseRows

end
-- ==== Proof.BlocksIdeal.lean ====
/-
  The layer, block by block.

  The call multiplies the 1024 item rows `M` by the 100000 weight rows `W` and adds the bias, 1792 output columns
  at a grid point: point `t` reads weight rows and bias entries `1792 t … 1792 t + 1791` and writes output columns
  `1792 t … 1792 t + 1791`. The last block overhangs the arrays by 352 positions: there the staging buffers hold
  something no one names past the arrays' end, the body computes with it, and the write-back drops those columns.
  Entry `(p, q)` of the body's result is `Σ n, M (p, n) · Wblock (q, n) + bblock (q)`, so an output column inside
  the array only ever reads a weight row and a bias entry inside the arrays: on the columns that are written back, the
  body's result is block `t` of ONE function of the whole operand arrays, `layer`.
-/
import proofs.«165624_j5403068859161_2_alg».proof.Proof.EntryIdeal
import proofs.«165624_j5403068859161_2_alg».proof.Proof.BodyIdeal
import proofs.«165624_j5403068859161_2_alg».proof.Proof.LibDenseRows
import Idealize.ShloMosaic.Lib.Pipeline.Value
import Idealize.ShloMosaic.Lib.Pipeline.Kit

set_option maxRecDepth 16384

noncomputable section

namespace Cert.KernelIdeal.Layer

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

/-! ## The layer as one function of its operands -/

/-- Entry `(p, q)` of the layer: the item's row against weight row `q`, plus bias entry `q`. -/
def layer (M : FVec Ideal S1024x768 .bf16) (W : FVec Ideal S100000x768 .f32) (B : FVec Ideal S1x100000 .f32) :
    FVec Ideal S1024x100000 .f32 := fun j =>
  (∑ n : Fin 768, M (ix2 (⟨(j 0).val, (j 0).isLt⟩ : Fin 1024) n) * W (ix2 (⟨(j 1).val, (j 1).isLt⟩ : Fin 100000) n))
    + B (ix2 (0 : Fin 1) (⟨(j 1).val, (j 1).isLt⟩ : Fin 100000))

/-- The body's result at an index: the same sum over the blocks it loaded. -/
theorem pay_apply (x1 : FVec Ideal S1024x768 .bf16) (x2 : FVec Ideal S1792x768 .f32) (x3 : FVec Ideal S1x1792 .f32)
    (p : Fin 1024) (q : Fin 1792) :
    k0_pay1 (F := Ideal) x1 x2 x3 (ix2 p q) = (∑ n : Fin 768, x1 (ix2 p n) * x2 (ix2 q n)) + x3 (ix2 (0 : Fin 1) q) := by
  simp only [k0_pay1, shapeCast_self]
  exact DenseRows.affine_rows_apply (K := 1024) (N := 768) (Q := 1792) dot_S1024x768_S1792x768_S1024x1792_1_1_0_0_n_n_wf
    x1 x2 x3 broadcasts_S1x1792_S1024x1792 p q

variable (m : (ℓ : Loc nD τ sig) → Buf (Elt Ideal) ℓ) (ρ : Dev nD → PrngReg)

/-- What the result array ends holding: the layer of the three operand arrays as the call finds them. -/
def result (c : Dev nD) : Buf (Elt Ideal) ((c : Thread nD τ).loc main_v39) :=
  layer (V m c main_v37) (V m c main_arg4) (V m c main_v38)

/-! ## The blocks -/

/-- The item rows: one block, the whole array, at every point. -/
def itemBlk (c : Dev nD) (t : Fin cfg0.N) : (win0_0.xblock (grid0.coords t)).Idx → Elt Ideal .bf16 :=
  (win0_0.blk t).view.read (Elt Ideal) (V m c main_v37)
/-- The weight rows of point `t` that lie inside the array. -/
def wBlk (c : Dev nD) (t : Fin cfg0.N) : (win0_1.xblock (grid0.coords t)).Idx → Elt Ideal .f32 :=
  (win0_1.blk t).view.read (Elt Ideal) (V m c main_arg4)
/-- The bias entries of point `t` that lie inside the array. -/
def bBlk (c : Dev nD) (t : Fin cfg0.N) : (win0_2.xblock (grid0.coords t)).Idx → Elt Ideal .f32 :=
  (win0_2.blk t).view.read (Elt Ideal) (V m c main_v38)
/-- The output columns of point `t` that lie inside the array, of the layer. -/
def outBlk (c : Dev nD) (t : Fin cfg0.N) : (win0_3.xblock (grid0.coords t)).Idx → Elt Ideal .f32 :=
  (win0_3.blk t).view.read (Elt Ideal) (result m c)

/-- The proof data: the arrays as the call finds them; after the body the item rows' buffer at the item rows, the
    weights' and the bias's at their blocks and the output's at the layer's block, each filled out past the arrays'
    end with a word nothing reads. -/
def dats (_ : Fin 1) (c : Dev nD) : Dat τ (Elt Ideal) Unit ℕ (UR sig nD τ) ℕ cfg0 c where
  A w := V m c (Pipeline.arrRef spec0 w)
  after w t := match w with
    | ⟨0, _⟩ => itemBlk m c t
    | ⟨1, _⟩ => win0_1.fill (grid0.coords t) (fun _ => Scalar.ofBits (F := Ideal) .f32 0#32) (wBlk m c t)
    | ⟨2, _⟩ => win0_2.fill (grid0.coords t) (fun _ => Scalar.ofBits (F := Ideal) .f32 0#32) (bBlk m c t)
    | ⟨3, _⟩ => win0_3.fill (grid0.coords t) (fun _ => Scalar.ofBits (F := Ideal) .f32 0#32) (outBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = itemBlk m c t := by dsimp only [dats]
theorem after_1 (c : Dev nD) (t : Fin cfg0.N) :
    (dats m 0 c).after 1 t = win0_1.fill (grid0.coords t) (fun _ => Scalar.ofBits (F := Ideal) .f32 0#32) (wBlk m c t) := by dsimp only [dats]
theorem after_2 (c : Dev nD) (t : Fin cfg0.N) :
    (dats m 0 c).after 2 t = win0_2.fill (grid0.coords t) (fun _ => Scalar.ofBits (F := Ideal) .f32 0#32) (bBlk m c t) := by dsimp only [dats]
theorem after_3 (c : Dev nD) (t : Fin cfg0.N) :
    (dats m 0 c).after 3 t = win0_3.fill (grid0.coords t) (fun _ => Scalar.ofBits (F := Ideal) .f32 0#32) (outBlk m c t) := by dsimp only [dats]

/-! ## What the body finds -/

/-- The item rows' buffer holds the item rows at every point: fetched once, never written. -/
theorem before_0 (c : Dev nD) (t : Fin cfg0.N) (d) : (dats m 0 c).before 0 t d = itemBlk m c t :=
  ((dats m 0 c).before_in_eq_fetched 0 rfl (fun _ => rfl) (fun _ _ _ => rfl)
    (fun t => by rw [after_0]; unfold Dat.blockOf itemBlk; rw [A_eq]; try rfl) t d).trans
    (by unfold Dat.fetched Dat.blockOf itemBlk; rw [A_eq]; try rfl)

/-- The weights' buffer was just fetched: the block where it lies inside the array, `d` past its end. -/
theorem before_1 (c : Dev nD) (t : Fin cfg0.N) (d) :
    (dats m 0 c).before 1 t d = win0_1.fill (grid0.coords t) d (wBlk m c t) := by
  rw [(dats m 0 c).before_fetched 1 t (fetch0_1 t) d]; unfold Dat.fetched Dat.blockOf wBlk; rw [A_eq]; try rfl

/-- The bias's likewise. -/
theorem before_2 (c : Dev nD) (t : Fin cfg0.N) (d) :
    (dats m 0 c).before 2 t d = win0_2.fill (grid0.coords t) d (bBlk m c t) := by
  rw [(dats m 0 c).before_fetched 2 t (fetch0_2 t) d]; unfold Dat.fetched Dat.blockOf bBlk; rw [A_eq]; try rfl

/-- The output's buffer is fresh at every point: every point writes it back. -/
theorem before_3 (c : Dev nD) (t : Fin cfg0.N) (d) : (dats m 0 c).before 3 t d = d :=
  (dats m 0 c).before_out_reset 3 rfl t
    (by by_cases h : t.val = 0
        · exact .inl h
        · exact .inr ⟨h, flush0_3 _⟩) d

/-! ## The body's result on the columns that are written back -/

/-- The index maps, and how much of each block lies inside its array, point by point: the item rows are one block;
    the weights move along their rows, the bias and the output along their columns, all with the point; the weights'
    rows, the bias's entries and the output's columns are cut alike at the arrays' end — nothing is cut before the last
    point, and the last block ends where the arrays do. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_1.xsize (grid0.coords t) (0 : Fin 2) = win0_3.xsize (grid0.coords t) (1 : Fin 2)
    ∧ win0_1.xsize (grid0.coords t) (1 : Fin 2) = 768
    ∧ win0_2.xsize (grid0.coords t) (0 : Fin 2) = 1
    ∧ win0_2.xsize (grid0.coords t) (1 : Fin 2) = win0_3.xsize (grid0.coords t) (1 : Fin 2)
    ∧ win0_3.xsize (grid0.coords t) (0 : Fin 2) = 1024
    ∧ win0_3.xsize (grid0.coords t) (1 : Fin 2) ≤ 1792
    ∧ (t.val * 1792 + 1792 ≤ 100000 → win0_3.xsize (grid0.coords t) (1 : Fin 2) = 1792)
    ∧ (100000 < t.val * 1792 + 1792 → t.val * 1792 + win0_3.xsize (grid0.coords t) (1 : Fin 2) = 100000) :=
  (by decide +kernel : ∀ t : Fin grid0.N, _)

/-- A buffer filled with a block reads the block at an index inside the part the transfer moves. -/
theorem fill_apply {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- THE BLOCK: whatever the weights' and the bias's buffers hold past the arrays' end (`d1`, `d2`), the body's result
    on the columns inside the array is block `t` of the layer: column `q` reads weight row `q` and bias entry `q` of
    the block, and `q` is inside the array exactly when they are. -/
theorem body_value (c : Dev nD) (t : Fin cfg0.N) (d1 : S1792x768.Idx → Elt Ideal .f32) (d2 : S1x1792.Idx → Elt Ideal .f32) :
    win0_3.cut (grid0.coords t) (k0_pay1 (F := Ideal) (itemBlk m c t)
        (win0_1.fill (grid0.coords t) d1 (wBlk m c t)) (win0_2.fill (grid0.coords t) d2 (bBlk m c t)))
      = outBlk m c t := by
  obtain ⟨i00, i01, i10, i11, i20, i21, i30, i31, x10, x11, x20, x21, x30, x31, x31a, x31b⟩ := idx_facts t
  funext j
  have hj0 : (j 0).val < win0_3.xsize (grid0.coords t) (0 : Fin 2) := (j 0).isLt
  have hj1 : (j 1).val < win0_3.xsize (grid0.coords t) (1 : Fin 2) := (j 1).isLt
  rw [x30] at hj0
  have hq : (j 1).val < 1792 := by omega
  have hcol : t.val * 1792 + (j 1).val < 100000 := by omega
  have hx : win0_3.xinj (grid0.coords t) j = ix2 (⟨(j 0).val, hj0⟩ : Fin 1024) (⟨(j 1).val, hq⟩ : Fin 1792) :=
    funext fun a => Fin.ext (by match a with | ⟨0, _⟩ => rfl | ⟨1, _⟩ => rfl)
  have he : (win0_3.blk t).view.emb j
      = ix2 (⟨(j 0).val, hj0⟩ : Fin 1024) (⟨t.val * 1792 + (j 1).val, hcol⟩ : Fin 100000) :=
    funext fun a => Fin.ext (by
      match a with
      | ⟨0, _⟩ => show win0_3.index t (0 : Fin 2) * 1024 + 1 * (j 0).val = (j 0).val; omega
      | ⟨1, _⟩ => show win0_3.index t (1 : Fin 2) * 1792 + 1 * (j 1).val = t.val * 1792 + (j 1).val; omega)
  show k0_pay1 (F := Ideal) _ _ _ (win0_3.xinj (grid0.coords t) j) = result m c ((win0_3.blk t).view.emb j)
  rw [hx, pay_apply, he]
  unfold result layer
  refine congrArg₂ (· + ·) (Finset.sum_congr rfl fun n _ => congrArg₂ (· * ·) ?_ ?_) ?_
  · -- the item's row: the one block is the whole array
    show V m c main_v37 ((win0_0.blk t).view.emb (ix2 (⟨(j 0).val, hj0⟩ : Fin 1024) n)) = V m c main_v37 (ix2 _ n)
    refine congrArg (V m c main_v37) (funext fun a => Fin.ext ?_)
    match a with
    | ⟨0, _⟩ => show win0_0.index t (0 : Fin 2) * 1024 + 1 * (j 0).val = (j 0).val; omega
    | ⟨1, _⟩ => show win0_0.index t (1 : Fin 2) * 768 + 1 * n.val = n.val; omega
  · -- weight row `q` of the block is row `1792 t + q` of the array, inside it
    rw [fill_apply win0_1 (grid0.coords t) d1 (wBlk m c t) (ix2 (⟨(j 1).val, hq⟩ : Fin 1792) n) (fun a => by
      match a with
      | ⟨0, _⟩ => show (j 1).val < win0_1.xsize (grid0.coords t) (0 : Fin 2); omega
      | ⟨1, _⟩ => show n.val < win0_1.xsize (grid0.coords t) (1 : Fin 2); have := n.isLt; omega)]
    show V m c main_arg4 ((win0_1.blk t).view.emb _) = V m c main_arg4 (ix2 _ n)
    refine congrArg (V m c main_arg4) (funext fun a => Fin.ext ?_)
    match a with
    | ⟨0, _⟩ => show win0_1.index t (0 : Fin 2) * 1792 + 1 * (j 1).val = t.val * 1792 + (j 1).val; omega
    | ⟨1, _⟩ => show win0_1.index t (1 : Fin 2) * 768 + 1 * n.val = n.val; omega
  · -- bias entry `q` of the block is entry `1792 t + q` of the array, inside it
    rw [fill_apply win0_2 (grid0.coords t) d2 (bBlk m c t) (ix2 (0 : Fin 1) (⟨(j 1).val, hq⟩ : Fin 1792)) (fun a => by
      match a with
      | ⟨0, _⟩ => show 0 < win0_2.xsize (grid0.coords t) (0 : Fin 2); omega
      | ⟨1, _⟩ => show (j 1).val < win0_2.xsize (grid0.coords t) (1 : Fin 2); omega)]
    show V m c main_v38 ((win0_2.blk t).view.emb _) = V m c main_v38 (ix2 (0 : Fin 1) _)
    refine congrArg (V m c main_v38) (funext fun a => Fin.ext ?_)
    match a with
    | ⟨0, _⟩ => show win0_2.index t (0 : Fin 2) * 1 + 1 * 0 = 0; omega
    | ⟨1, _⟩ => show win0_2.index t (1 : Fin 2) * 1792 + 1 * (j 1).val = t.val * 1792 + (j 1).val; omega

/-! ## The body obligation and the run -/

/-- At every point the body finds the item rows, the weights' and the bias's blocks (anything past the arrays' end)
    and a fresh output buffer, and leaves the inputs as they were and in the output buffer, on the columns inside the
    array, the layer's block. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  show _ ⊢ wp frame (wpE (defs₀ (F := Ideal)) Variants.none c none) Set.univ (bodyAt0 t) _
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (Body.sound_kernel (F := Ideal) c Set.univ (grid0.coords t) _ _ _ _ _ _ _ _ (itemBlk m c t)
    (win0_1.fill (grid0.coords t) d1 (wBlk m c t)) (win0_2.fill (grid0.coords t) d2 (bBlk m c t)) _)
  isplitl [H0]; · iexact H0
  isplitl [H1]; · iexact H1
  isplitl [H2]; · iexact H2
  isplitl [H3]; · iexists d3; iexact H3
  obtain ⟨P, hP⟩ : ∃ P : S1024x1792.Idx → Elt Ideal .f32, P = k0_pay1 (F := Ideal) (itemBlk m c t)
      (win0_1.fill (grid0.coords t) d1 (wBlk m c t)) (win0_2.fill (grid0.coords t) d2 (bBlk m c t)) := ⟨_, rfl⟩
  rw [← hP]
  iintro ⟨H0, H1, H2, H3⟩
  isplitl [HΦ]; · iexact HΦ
  isplitl [Ho]; · iexact Ho
  isplitl [H0]
  · rw [after_0]; iexact H0
  isplitl [H1]
  · iexists d1
    change _ ⊢ owns (c : Thread nD τ) (stage0_1 (cfg0.slots t 1)) fullShare
      (win0_1.fill (grid0.coords t) d1 (win0_1.cut (grid0.coords t) ((dats m 0 c).after 1 t)))
    rw [after_1, win0_1.cut_fill]; try iexact H1
  isplitl [H2]
  · iexists d2
    change _ ⊢ owns (c : Thread nD τ) (stage0_2 (cfg0.slots t 2)) fullShare
      (win0_2.fill (grid0.coords t) d2 (win0_2.cut (grid0.coords t) ((dats m 0 c).after 2 t)))
    rw [after_2, win0_2.cut_fill]; try iexact H2
  · iexists P
    change _ ⊢ owns (c : Thread nD τ) (stage0_3 (cfg0.slots t 3)) fullShare
      (win0_3.fill (grid0.coords t) P (win0_3.cut (grid0.coords t) ((dats m 0 c).after 3 t)))
    rw [after_3, win0_3.cut_fill, ← body_value m c t d1 d2, ← hP, win0_3.fill_cut]; try iexact H3

set_option backward.isDefEq.respectTransparency.types false in
/-- Every weakly fair execution ends, the call's arrays at what the write-backs leave and every other buffer as the
    call found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.KernelIdeal.Layer

end
-- ==== Proof.ArrayIdeal.lean ====
/-
  The result array after the run.

  Point `t` writes back the part of its output block that lies inside the array: columns
  `1792 t … min (1792 t + 1791, 99999)`, all 1024 rows, of the layer. Column `q` of the array lies in the block of
  point `q / 1792`, so the 56 blocks cover the array, and the array ends holding the layer. The arguments are
  not written: the weight array is only ever fetched, and no other argument is an array of the call at all.
-/
import proofs.«165624_j5403068859161_2_alg».proof.Proof.BlocksIdeal

set_option maxRecDepth 16384

noncomputable section

namespace Cert.KernelIdeal.Layer

open Cert.KernelIdeal Cert.KernelIdeal.Gen Cert.KernelIdeal.Entry
open Idealize.ShloMosaic Idealize.ShloMosaic.TcCoe
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

/-- What point `t` writes back is block `t` of the layer. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after_3]
  exact win0_3.cut_fill _ _ _

/-- An index of the array is under point `t`'s block iff each coordinate is in the block's range, cut at the array's
    end. -/
theorem mem_blk (t : Fin cfg0.N) (i : S1024x100000.Idx) :
    i ∈ ((cfg0.win 3).blk t).view.set ↔ ∀ a : Fin 2, win0_3.index t a * S1024x1792.size a ≤ (i a).val
      ∧ (i a).val < win0_3.index t a * S1024x1792.size a + win0_3.xsize (grid0.coords t) a := by
  show i ∈ ((View.whole main_v39).slice (win0_3.rect t)).set ↔ _
  rw [View.set_slice_whole, Rect.mem_set_unit]
  exact Iff.rfl

/-- Every index of the array is under the block of the point its column belongs to. -/
theorem cover (i : S1024x100000.Idx) :
    ∃ t : Fin cfg0.N, (cfg0.win 3).flush t = true ∧ i ∈ ((cfg0.win 3).blk t).view.set := by
  have hi0 : (i 0).val < 1024 := (i 0).isLt
  have hi1 : (i 1).val < 100000 := (i 1).isLt
  have hN : cfg0.N = 56 := N_0
  have ht : (i 1).val / 1792 < cfg0.N := by rw [hN]; omega
  obtain ⟨i00, i01, i10, i11, i20, i21, i30, i31, x10, x11, x20, x21, x30, x31, x31a, x31b⟩ :=
    idx_facts ⟨(i 1).val / 1792, ht⟩
  refine ⟨⟨(i 1).val / 1792, ht⟩, flush0_3 _, ?_⟩
  rw [mem_blk]
  intro a
  match a with
  | ⟨0, _⟩ =>
    show win0_3.index ⟨(i 1).val / 1792, ht⟩ (0 : Fin 2) * 1024 ≤ (i 0).val
      ∧ (i 0).val < win0_3.index ⟨(i 1).val / 1792, ht⟩ (0 : Fin 2) * 1024
          + win0_3.xsize (grid0.coords ⟨(i 1).val / 1792, ht⟩) (0 : Fin 2)
    omega
  | ⟨1, _⟩ =>
    show win0_3.index ⟨(i 1).val / 1792, ht⟩ (1 : Fin 2) * 1792 ≤ (i 1).val
      ∧ (i 1).val < win0_3.index ⟨(i 1).val / 1792, ht⟩ (1 : Fin 2) * 1792
          + win0_3.xsize (grid0.coords ⟨(i 1).val / 1792, ht⟩) (1 : Fin 2)
    have e : (⟨(i 1).val / 1792, ht⟩ : Fin cfg0.N).val = (i 1).val / 1792 := rfl
    omega

/-- The result array after the run is the layer. -/
theorem final (c : Dev nD) : (dats m 0 c).arrAt 3 cfg0.N = result m c :=
  (dats m 0 c).arrAt_eq_of_cover 3 (result m c) (fun t _ => flushed_eq m c t) cover

/-- The run, read: the result array ends at the layer of the operands the call found, the arguments as they began. -/
theorem run : θ_run defs (onTc (τ := τ) (main (F := Ideal))) ⟨m, fun _ => 0, ρ⟩ fun r => ∀ c : Dev nD,
      r.2.mem ((c.tc : Thread nD τ).loc main_v39) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).1 (3 : Fin 4)).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (((h c).1 (1 : Fin 4)).trans ((dats m 0 c).arrAt_in (1 : Fin 4) rfl _)).trans ((A_eq m c 1).trans (V_main_arg4 m c)),
      ((h c).2 main_arg5 (Pipeline.mem_restRefs_of main_arg5 (by decide) (by decide))).trans (V_main_arg5 m c)⟩)
    (run_main m ρ)

end Cert.KernelIdeal.Layer

end
-- ==== Proof.OperandsIdeal.lean ====
/-
  The call's operands in terms of the arguments.

  The call reads three arrays: the 1024 x 768 matrix of item rows that the host operations assembled, the weight
  array (an argument itself), and the bias vector viewed as one row. The item rows are built from the arguments by
  exactly the operations the reference applies to the same arguments — pick the entity's two word rows and the
  relation's row, side by side — followed by a rounding to a narrower format, which over the extended reals changes
  nothing. So the matrix is the reference's own matrix of item rows, and it is never opened here.
-/
import proofs.«165624_j5403068859161_2_alg».proof.Proof.EntryIdeal
import proofs.«165624_j5403068859161_2_alg».proof.Proof.Gen.ReferenceIdeal.Read
import Idealize.ShloMosaic.Lib.ValueLayout

set_option maxRecDepth 16384

noncomputable section

namespace Cert.KernelIdeal.Operands

open Cert.KernelIdeal Cert.KernelIdeal.Gen Cert.KernelIdeal.Entry
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The bias operand is the bias vector viewed as one row. -/
theorem bias_eq (c : Dev nD) :
    (V m c main_v38 : S1x100000.Idx → Elt Ideal .f32)
      = shapeCast S1x100000 (m ((c.tc : Thread nD τ).loc main_arg5)) shapeCasts_S100000_S1x100000 := by
  dsimp only [V, hostOps0]
  after_results_simp
  rfl

/-- Its entry `q` is the vector's entry `q`. -/
theorem bias_apply (c : Dev nD) (q : Fin 100000) :
    V m c main_v38 (ix2 (0 : Fin 1) q) = m ((c.tc : Thread nD τ).loc main_arg5) (ix1 q) := by
  rw [bias_eq]
  exact shapeCast_a_1a_apply _ _ (0 : Fin 1) q

set_option maxHeartbeats 1000000 in
/-- The item rows are the reference's matrix of item rows of the same arguments. -/
theorem items_eq (c : Dev nD) :
    (V m c main_v37 : S1024x768.Idx → Elt Ideal .bf16)
      = Cert.ReferenceIdeal.Read.val_main_v36 (F := Ideal) (m ((c.tc : Thread nD τ).loc main_arg0))
          (m ((c.tc : Thread nD τ).loc main_arg1)) (m ((c.tc : Thread nD τ).loc main_arg2))
          (m ((c.tc : Thread nD τ).loc main_arg3)) := by
  dsimp only [V, hostOps0]
  after_results_simp
  rfl

end Cert.KernelIdeal.Operands

end
-- ==== Proof.RefSide.lean ====
/-
  The reference's result, read at an index.

  The reference multiplies the matrix of item rows by the transposed weight array and adds the bias vector laid
  along every row. Over the extended reals entry `(p, q)` of its result is
  `Σ k, items (p, k) · W (q, k) + b (q)`: the transposition only renames which coordinate of the weight array the
  sum runs along, and the two broadcasts only repeat the bias entry of column `q` down the column.
-/
import proofs.«165624_j5403068859161_2_alg».proof.Proof.Gen.ReferenceIdeal.Read
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-- Entry `(p, q)` of the reference's result. -/
theorem result_apply (x0 : (⟨S1024x2, .i32⟩ : BufTy).Contents (Elt Ideal)) (x1 : (⟨S100000x2, .i32⟩ : BufTy).Contents (Elt Ideal))
    (x2 : (⟨S50000x256, .f32⟩ : BufTy).Contents (Elt Ideal)) (x3 : (⟨S500x256, .f32⟩ : BufTy).Contents (Elt Ideal))
    (x4 : (⟨S100000x768, .f32⟩ : BufTy).Contents (Elt Ideal)) (x5 : (⟨S100000, .f32⟩ : BufTy).Contents (Elt Ideal))
    (i : S1024x100000.Idx) :
    val_main_v41 (F := Ideal) x0 x1 x2 x3 x4 x5 i
      = (∑ k : Fin 768, val_main_v36 (F := Ideal) x0 x1 x2 x3 (ix2 (⟨(i 0).val, (i 0).isLt⟩ : Fin 1024) k)
            * x4 (ix2 (⟨(i 1).val, (i 1).isLt⟩ : Fin 100000) k))
          + x5 (ix1 (⟨(i 1).val, (i 1).isLt⟩ : Fin 100000)) := by
  have e1 : ∀ k : Fin 768, lidx_main_v38 i k = ix2 (⟨(i 0).val, (i 0).isLt⟩ : Fin 1024) k := fun k =>
    funext fun a => Fin.ext (by match a with | ⟨0, _⟩ => rfl | ⟨1, _⟩ => rfl)
  have e2 : ∀ k : Fin 768, idx_main_v37 (ridx_main_v38 i k) = ix2 (⟨(i 1).val, (i 1).isLt⟩ : Fin 100000) k := fun k =>
    funext fun a => Fin.ext (by match a with | ⟨0, _⟩ => rfl | ⟨1, _⟩ => rfl)
  have e3 : idx_main_v39 (idx_main_v40 i) = ix1 (⟨(i 1).val, (i 1).isLt⟩ : Fin 100000) :=
    funext fun a => Fin.ext (by match a with | ⟨0, _⟩ => rfl)
  rw [val_main_v41_apply, val_main_v38_apply, val_main_v40_apply, val_main_v39_apply, e3]
  simp only [val_main_v37_apply, e1, e2]
  rfl

end Cert.ReferenceIdeal.RefValue

end
-- ==== Proof.Agree.lean ====
/-
  The two programs compute one function of the arguments.

  The kernel's result array ends at the layer of the three arrays its call finds: the matrix of item rows, the weight
  array and the bias row. The item rows are the reference's item rows, the weight array is the argument itself and
  the bias row's entry `q` is the bias vector's entry `q`; so entry `(p, q)` of the kernel's result is
  `Σ k, items (p, k) · W (q, k) + b (q)`, which is entry `(p, q)` of the reference's result, term by term in the same
  order: no law of the extended reals beyond equality is used, and no entry has to be finite.
-/
import proofs.«165624_j5403068859161_2_alg».proof.Proof.ArrayIdeal
import proofs.«165624_j5403068859161_2_alg».proof.Proof.OperandsIdeal
import proofs.«165624_j5403068859161_2_alg».proof.Proof.RefSide

set_option maxRecDepth 16384

noncomputable section

namespace Cert.Agree

open Idealize.ShloMosaic Idealize.ShloMosaic.TcCoe Idealize.SL.Sem
open Idealize.ShloMosaic.ValueIdx

/-- From memories that agree on the six arguments, the layer of what the kernel's call finds is the reference's
    result. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v41 (F := Ideal) m' c = Cert.KernelIdeal.Layer.result m c := by
  refine (Cert.ReferenceIdeal.Read.val_main_v41_eq (F := Ideal) m' c).trans ?_
  rw [h0, h1, h2, h3, h4, h5]
  funext j
  refine (Cert.ReferenceIdeal.RefValue.result_apply _ _ _ _ _ _ j).trans ?_
  show _ = Cert.KernelIdeal.Layer.layer (Cert.KernelIdeal.Entry.V m c Cert.KernelIdeal.main_v37)
      (Cert.KernelIdeal.Entry.V m c Cert.KernelIdeal.main_arg4) (Cert.KernelIdeal.Entry.V m c Cert.KernelIdeal.main_v38) j
  unfold Cert.KernelIdeal.Layer.layer
  rw [Cert.KernelIdeal.Operands.bias_apply, Cert.KernelIdeal.Operands.items_eq, Cert.KernelIdeal.Entry.V_main_arg4]

end Cert.Agree

end
-- ==== Proof.lean ====
/-
  The certificate of the entity-scoring layer.

  Both programs score 1024 items against 100000 entities: each item is three embedding rows picked by its indices and
  laid side by side, and entity `q`'s score is the item's row against weight row `q` plus bias `q`. The reference
  multiplies by the transposed weight array at once; the kernel walks the entities 1792 at a time, the last block
  running past the end of the arrays. The three frames say each program runs to its end and writes no argument
  (`FrameBits` for the kernel as printed; the value run `ArrayIdeal` for its idealization; the reference's run as
  generated). The idealization rewrote nothing, so there is nothing to preserve. And from agreeing arguments both
  idealized programs end with the same result (`Agree.result_eq`).
-/
import proofs.«165624_j5403068859161_2_alg».proof.Defs
import proofs.«165624_j5403068859161_2_alg».proof.Proof.FrameBits
import proofs.«165624_j5403068859161_2_alg».proof.Proof.Agree
import proofs.«165624_j5403068859161_2_alg».proof.Proof.Gen.Kernel
import proofs.«165624_j5403068859161_2_alg».proof.Proof.Gen.KernelIdeal
import proofs.«165624_j5403068859161_2_alg».proof.Proof.Gen.ReferenceIdeal
import proofs.«165624_j5403068859161_2_alg».proof.Proof.Gen.ReferenceIdeal.Run
import proofs.«165624_j5403068859161_2_alg».proof.Proof.Gen.Pre_finite_inputs
import Idealize.ShloMosaic.Adequacy
import Idealize.ShloMosaic.Init

noncomputable section

namespace Cert.Proof

open Idealize.ShloMosaic Idealize.SL.Sem

/-- The kernel as printed runs and writes no argument. -/
theorem frame_k : Cert.frame_Kernel := fun m ρ _ => Cert.Kernel.Frame.frame (F := Bits) m ρ

/-- Its idealization runs and writes no argument: its value run, the result forgotten. -/
theorem frame_ki : Cert.frame_KernelIdeal := fun m ρ _ =>
  (θ_run Cert.KernelIdeal.defs _ _).mono (fun _ h c => (h c).2) (Cert.KernelIdeal.Layer.run m ρ)

/-- The reference runs and writes no argument: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From agreeing arguments the two idealized programs end with one result: the layer. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact Cert.Agree.result_eq m m' c h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
